-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S800000 : S_.BroadcastsInDim S800000 (![] : Fin 0 → Fin S800000.rank)
  reducesTo_S800000_S_d0 : S800000.ReducesTo [0] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S261x128 1) : IVec S_ 1 :=
  let main_c_5 : IVec S_ 1 := constantI S_ 1 1#1
  let main_v17 : IVec S_ 1 := (fun x v => Host.reduce IntOp.andi x v reducesTo_S261x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x2 .f32) (main_arg1 : FVec F S50000x128 .f32) (main_arg2 : FVec F S800000 .f32) (main_arg3 : IVec S800000 32) (main_arg4 : IVec S800000 32) (main_arg5 : FVec F S261x128 .f32) (main_arg6 : FVec F S128 .f32) (main_arg7 : FVec F S128x128 .f32) (main_arg8 : FVec F S128 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S261x128 .f32 := Host.absf main_arg5
  let main_cst_4 : FVec F S_ .f32 := constant S_ .f32 0x7F800000#32
  let main_v15 : FVec F S261x128 .f32 := broadcastInDim S261x128 ![] bcast_S_S261x128 main_cst_4
  let main_v16 : IVec S261x128 1 := cmpf .olt main_v14 main_v15
  fn_part1 (F := F) main_arg6 main_arg7 main_arg8 main_v13 main_v16
-- ==== Kernel.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S800000x5 : Shape := ⟨2, ![800000, 5]⟩
abbrev S2x128 : Shape := ⟨2, ![2, 128]⟩
abbrev S1x128 : Shape := ⟨2, ![1, 128]⟩
abbrev S5x128 : Shape := ⟨2, ![5, 128]⟩
abbrev S8000x128 : Shape := ⟨2, ![8000, 128]⟩
abbrev S8000x5 : Shape := ⟨2, ![8000, 5]⟩

abbrev nBuf : Space → Nat
  | .hbm => 61
  | .vmem => 14
  | .smem => 0
  | _ => 0

abbrev bufTy : (tb : Table) → Fin (tcTables nBuf tb) → BufTy
  | .hbm, ⟨0, _⟩ => ⟨S50000x2, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S261x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000x2, .bf16⟩
  | .hbm, ⟨10, _⟩ => ⟨S50000x128, .bf16⟩
  | .hbm, ⟨11, _⟩ => ⟨S800000, .bf16⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x2, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x2, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x1, .bf16⟩
  | .hbm, ⟨49, _⟩ => ⟨S800000x5, .bf16⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S2x128, .f32⟩
  | .hbm, ⟨55, _⟩ => ⟨S2x128, .f32⟩
  | .hbm, ⟨56, _⟩ => ⟨S1x128, .f32⟩
  | .hbm, ⟨57, _⟩ => ⟨S5x128, .f32⟩
  | .hbm, ⟨58, _⟩ => ⟨S5x128, .bf16⟩
  | .hbm, ⟨59, _⟩ => ⟨S128x128, .bf16⟩
  | .hbm, ⟨60, _⟩ => ⟨S800000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x5, .bf16⟩
  | .local _ .vmem, ⟨5, _⟩ => ⟨S8000x5, .bf16⟩
  | .local _ .vmem, ⟨6, _⟩ => ⟨S128x128, .bf16⟩
  | .local _ .vmem, ⟨7, _⟩ => ⟨S128x128, .bf16⟩
  | .local _ .vmem, ⟨8, _⟩ => ⟨S5x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S8000x128, .f32⟩
  | .local _ .vmem, ⟨13, _⟩ => ⟨S8000x128, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x5 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x2_S800000x2_S800000x1_S800000x5_d1 : Shape.Concatenates [S800000x2, S800000x2, S800000x1] S800000x5 1
  slices_S261x128_S128x128_2_0 : S261x128.Slices ![2, 0] S128x128
  slices_S261x128_S128x128_132_0 : S261x128.Slices ![132, 0] S128x128
  slices_S261x128_S2x128_0_0 : S261x128.Slices ![0, 0] S2x128
  slices_S261x128_S2x128_130_0 : S261x128.Slices ![130, 0] S2x128
  slices_S261x128_S1x128_260_0 : S261x128.Slices ![260, 0] S1x128
  concatenates_S2x128_S2x128_S1x128_S5x128_d0 : Shape.Concatenates [S2x128, S2x128, S1x128] S5x128 0
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x5_S5x128_S8000x128_1_0_0_1_n_n_wf : DotDims.WF S8000x5 S5x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x5.size a ≤ S800000x5.size a
  hwx0_2 : ∀ i : grid0.Coords, EltTy.bits .bf16 = 32 ∨ (Rect.block (s := S800000x5) S8000x5.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .bf16 = 32 ∨ (Rect.block (s := S5x128) S5x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S800000x128.size a
  hwx0_9 : ∀ i : grid0.Coords, EltTy.bits .f32 = 32 ∨ (Rect.block (s := S800000x128) S8000x128.size (cc0_transform_9 i) (hinb0_9 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x5_S5x128_S8000x128_1_0_0_1_n_n : DotDims S8000x5 S5x128 S8000x128 where
  lhsContracting := [1]
  rhsContracting := [0]
  lhsNonContracting := [0]
  rhsNonContracting := [1]
  lhsBatch := []
  rhsBatch := []
  wf := dot_S8000x5_S5x128_S8000x128_1_0_0_1_n_n_wf

abbrev win0_0 : Pipeline.Window sig grid0 :=
  Pipeline.Window.ofSpec (Memref.whole main_v16) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S800000x261 : Shape := ⟨2, ![800000, 261]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S261x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x1, .f32⟩
  | .hbm, ⟨46, _⟩ => ⟨S800000x261, .f32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x2_S800000x128_S800000x2_S800000x128_S800000x1_S800000x261_d1 : Shape.Concatenates [S800000x2, S800000x128, S800000x2, S800000x128, S800000x1] S800000x261 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S800000x261_S261x128_S800000x128_1_0_0_1_n_n_wf : DotDims.WF S800000x261 S261x128 S800000x128 [1] [0] [0] [1] [] []
  dot_S800000x128_S128x128_S800000x128_1_0_0_1_n_n_wf : DotDims.WF S800000x128 S128x128 S800000x128 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x261_S261x128_S800000x128_1_0_0_1_n_n : DotDims S800000x261 S261x128 S800000x128 where
  lhsContracting := [1]
  rhsContracting := [0]
  lhsNonContracting := [0]
  rhsNonContracting := [1]
  lhsBatch := []
  rhsBatch := []
  wf := dot_S800000x261_S261x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.EdgeMlpRunWords.lean ====
/-
  The run of the edge network's program around its one pallas_call, at any float instance.

  @main is one stretch of host operations (the tables recast, the rows of both endpoints gathered, the five narrow
  columns packed, the first layer's weight cut into its three row bands) followed by the pallas_call. The call runs a
  grid of 100 points; point t is handed rows 8000·t … 8000·t + 7999 of the three per-edge arrays and the six small
  arrays whole, and stores one block of 8000 × 128 results that covers its output buffer.

  Stated here: what the buffers hold when the call is entered (`V`), that no host operation writes an argument array,
  each window's block at a point (`blockAt`), the body's Hoare triple (the output buffer ends at the one stored
  payload, the inputs as found), the proof data of the pipeline, and the run: every weakly fair execution terminates
  with every window's array at what the pipeline wrote back and every other buffer as the call found it. The frame
  claim is that post read at the nine argument arrays.
-/
import proofs.«134984_j5403068859067_2_alg».proof.Proof.Gen.Kernel.Launch
import proofs.«134984_j5403068859067_2_alg».proof.Proof.Gen.Kernel.Skeleton
import proofs.«134984_j5403068859067_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.EdgeMlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffers after the host operations that precede the call. -/
abbrev V (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- @main is those operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (where it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (where it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (where it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (where it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (where it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (where it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (where it is not
    fetched its block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point, fetched there or not (where it is not
    fetched its block index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- The argument arrays end as launched: the two biases are windows' arrays of input windows (an input's array is never
    written back), the other seven are staged by no window and end as the call found them; the call found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c)))⟩) h

/-! ## The body's accesses and what it leaves -/

/-- The whole of each buffer shape the body touches. -/
abbrev rRows : Rect S8000x128 := Rect.unit (s := S8000x128) ![0, 0] S8000x128.size inb_S8000x128_S8000x128_0_0
abbrev rNarrow : Rect S8000x5 := Rect.unit (s := S8000x5) ![0, 0] S8000x5.size inb_S8000x5_S8000x5_0_0
abbrev rSquare : Rect S128x128 := Rect.unit (s := S128x128) ![0, 0] S128x128.size inb_S128x128_S128x128_0_0
abbrev rBand : Rect S5x128 := Rect.unit (s := S5x128) ![0, 0] S5x128.size inb_S5x128_S5x128_0_0
abbrev rBias : Rect S128 := Rect.unit (s := S128) ![0] S128.size inb_S128_S128_0

/-- The output buffer after the body, from the nine input blocks: its one store, of the two-layer network's value on
    the block's 8000 rows. -/
def outBlock (x0 x1 : Vec F S8000x128 .bf16) (x2 : Vec F S8000x5 .bf16) (x3 x4 : Vec F S128x128 .bf16) (x5 : Vec F S5x128 .bf16)
    (x6 : Vec F S128 .f32) (x7 : Vec F S128x128 .bf16) (x8 : Vec F S128 .f32) : Vec F S8000x128 .f32 :=
  View.canon [⟨rRows, k0_pay1 (View.ld x0 rRows) (View.ld x3 rSquare) (View.ld x1 rRows) (View.ld x4 rSquare) (View.ld x2 rNarrow)
    (View.ld x5 rBand) (View.ld x6 rBias) (View.ld x7 rSquare) (View.ld x8 rBias)⟩]

/-- That store covers the buffer. -/
theorem outBlock_cover (p0 : Vec F S8000x128 .f32) (y : S8000x128.Idx) :
    ∃ pc ∈ ([⟨rRows, p0⟩] : List (View.Piece (Elt F) S8000x128 .f32)), y ∈ pc.1.set :=
  View.cover_of_tiled [⟨rRows, p0⟩] S8000x128.size (by rfl) y

/-! ## The body's triple -/

set_option maxHeartbeats 2000000 in
/-- The body on whole staging buffers, the inputs' at contents `x0 … x8` and the output's at anything, runs to its
    continuation with the inputs' as they were and the output's at `outBlock` of them. -/
theorem sound_kernel (c : Dev nD) (E : Set ℕ) (i : grid0.Coords)
    (arg0 : Memref sig .tc .vmem S8000x128 .bf16) (harg0 : arg0.IsWhole) (arg1 : Memref sig .tc .vmem S8000x128 .bf16) (harg1 : arg1.IsWhole)
    (arg2 : Memref sig .tc .vmem S8000x5 .bf16) (harg2 : arg2.IsWhole) (arg3 : Memref sig .tc .vmem S128x128 .bf16) (harg3 : arg3.IsWhole)
    (arg4 : Memref sig .tc .vmem S128x128 .bf16) (harg4 : arg4.IsWhole) (arg5 : Memref sig .tc .vmem S5x128 .bf16) (harg5 : arg5.IsWhole)
    (arg6 : Memref sig .tc .vmem S128 .f32) (harg6 : arg6.IsWhole) (arg7 : Memref sig .tc .vmem S128x128 .bf16) (harg7 : arg7.IsWhole)
    (arg8 : Memref sig .tc .vmem S128 .f32) (harg8 : arg8.IsWhole) (arg9 : Memref sig .tc .vmem S8000x128 .f32) (harg9 : arg9.IsWhole)
    (x0 x1 : Vec F S8000x128 .bf16) (x2 : Vec F S8000x5 .bf16) (x3 x4 : Vec F S128x128 .bf16) (x5 : Vec F S5x128 .bf16)
    (x6 : Vec F S128 .f32) (x7 : Vec F S128x128 .bf16) (x8 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBlock x0 x1 x2 x3 x4 x5 x6 x7 x8)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outBlock_cover _)

/-! ## The pipeline's proof data -/

/-- On core `c`: the arrays as the call finds them; after the body at point `t` each input's buffer at its block and
    the output's at `outBlock` of the input blocks; the kernel keeps nothing of its own between points. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outBlock (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) : (dats m 0 c).after 9 t = outBlock (blockAt m c 0 t) (blockAt m c 1 t) (blockAt m c 2 t) (blockAt m c 3 t) (blockAt m c 4 t) (blockAt m c 5 t) (blockAt m c 6 t) (blockAt m c 7 t) (blockAt m c 8 t) := by dsimp only [dats]

theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d
theorem before4 (c : Dev nD) (t : Fin cfg0.N) (d) : (dats m 0 c).before 4 t d = blockAt m c 4 t :=
  before4_of m (dats m 0 c) (A_eq m c 4) (after4 m c) t d
theorem before5 (c : Dev nD) (t : Fin cfg0.N) (d) : (dats m 0 c).before 5 t d = blockAt m c 5 t :=
  before5_of m (dats m 0 c) (A_eq m c 5) (after5 m c) t d
theorem before6 (c : Dev nD) (t : Fin cfg0.N) (d) : (dats m 0 c).before 6 t d = blockAt m c 6 t :=
  before6_of m (dats m 0 c) (A_eq m c 6) (after6 m c) t d
theorem before7 (c : Dev nD) (t : Fin cfg0.N) (d) : (dats m 0 c).before 7 t d = blockAt m c 7 t :=
  before7_of m (dats m 0 c) (A_eq m c 7) (after7 m c) t d
theorem before8 (c : Dev nD) (t : Fin cfg0.N) (d) : (dats m 0 c).before 8 t d = blockAt m c 8 t :=
  before8_of m (dats m 0 c) (A_eq m c 8) (after8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every window's array ends at what the pipeline wrote back of the
    proof data, every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.EdgeMlp

end
-- ==== Proof.EdgeMlpRun.lean ====
/-
  The run of the edge network's program around its one pallas_call, at any float instance.

  @main is one stretch of host operations (the tables recast, the rows of both endpoints gathered, the five narrow
  columns packed, the first layer's weight cut into its three row bands) followed by the pallas_call. The call runs a
  grid of 100 points; point t is handed rows 8000·t … 8000·t + 7999 of the three per-edge arrays and the six small
  arrays whole, and stores one block of 8000 × 128 results that covers its output buffer.

  Stated here: what the buffers hold when the call is entered (`V`), that no host operation writes an argument array,
  each window's block at a point (`blockAt`), the body's Hoare triple (the output buffer ends at the one stored
  payload, the inputs as found), the proof data of the pipeline, and the run: every weakly fair execution terminates
  with every window's array at what the pipeline wrote back and every other buffer as the call found it. The frame
  claim is that post read at the nine argument arrays.
-/
import proofs.«134984_j5403068859067_2_alg».proof.Proof.Gen.KernelIdeal.Launch
import proofs.«134984_j5403068859067_2_alg».proof.Proof.Gen.KernelIdeal.Skeleton
import proofs.«134984_j5403068859067_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.EdgeMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffers after the host operations that precede the call. -/
abbrev V (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- @main is those operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (where it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (where it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (where it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (where it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (where it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (where it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (where it is not
    fetched its block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point, fetched there or not (where it is not
    fetched its block index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the run's -/

/-- The argument arrays end as launched: the two biases are windows' arrays of input windows (an input's array is never
    written back), the other seven are staged by no window and end as the call found them; the call found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c)))⟩) h

/-! ## The body's accesses and what it leaves -/

/-- The whole of each buffer shape the body touches. -/
abbrev rRows : Rect S8000x128 := Rect.unit (s := S8000x128) ![0, 0] S8000x128.size inb_S8000x128_S8000x128_0_0
abbrev rNarrow : Rect S8000x5 := Rect.unit (s := S8000x5) ![0, 0] S8000x5.size inb_S8000x5_S8000x5_0_0
abbrev rSquare : Rect S128x128 := Rect.unit (s := S128x128) ![0, 0] S128x128.size inb_S128x128_S128x128_0_0
abbrev rBand : Rect S5x128 := Rect.unit (s := S5x128) ![0, 0] S5x128.size inb_S5x128_S5x128_0_0
abbrev rBias : Rect S128 := Rect.unit (s := S128) ![0] S128.size inb_S128_S128_0

/-- The output buffer after the body, from the nine input blocks: its one store, of the two-layer network's value on
    the block's 8000 rows. -/
def outBlock (x0 x1 : Vec F S8000x128 .bf16) (x2 : Vec F S8000x5 .bf16) (x3 x4 : Vec F S128x128 .bf16) (x5 : Vec F S5x128 .bf16)
    (x6 : Vec F S128 .f32) (x7 : Vec F S128x128 .bf16) (x8 : Vec F S128 .f32) : Vec F S8000x128 .f32 :=
  View.canon [⟨rRows, k0_pay1 (View.ld x0 rRows) (View.ld x3 rSquare) (View.ld x1 rRows) (View.ld x4 rSquare) (View.ld x2 rNarrow)
    (View.ld x5 rBand) (View.ld x6 rBias) (View.ld x7 rSquare) (View.ld x8 rBias)⟩]

/-- That store covers the buffer. -/
theorem outBlock_cover (p0 : Vec F S8000x128 .f32) (y : S8000x128.Idx) :
    ∃ pc ∈ ([⟨rRows, p0⟩] : List (View.Piece (Elt F) S8000x128 .f32)), y ∈ pc.1.set :=
  View.cover_of_tiled [⟨rRows, p0⟩] S8000x128.size (by rfl) y

/-! ## The body's triple -/

set_option maxHeartbeats 2000000 in
/-- The body on whole staging buffers, the inputs' at contents `x0 … x8` and the output's at anything, runs to its
    continuation with the inputs' as they were and the output's at `outBlock` of them. -/
theorem sound_kernel (c : Dev nD) (E : Set ℕ) (i : grid0.Coords)
    (arg0 : Memref sig .tc .vmem S8000x128 .bf16) (harg0 : arg0.IsWhole) (arg1 : Memref sig .tc .vmem S8000x128 .bf16) (harg1 : arg1.IsWhole)
    (arg2 : Memref sig .tc .vmem S8000x5 .bf16) (harg2 : arg2.IsWhole) (arg3 : Memref sig .tc .vmem S128x128 .bf16) (harg3 : arg3.IsWhole)
    (arg4 : Memref sig .tc .vmem S128x128 .bf16) (harg4 : arg4.IsWhole) (arg5 : Memref sig .tc .vmem S5x128 .bf16) (harg5 : arg5.IsWhole)
    (arg6 : Memref sig .tc .vmem S128 .f32) (harg6 : arg6.IsWhole) (arg7 : Memref sig .tc .vmem S128x128 .bf16) (harg7 : arg7.IsWhole)
    (arg8 : Memref sig .tc .vmem S128 .f32) (harg8 : arg8.IsWhole) (arg9 : Memref sig .tc .vmem S8000x128 .f32) (harg9 : arg9.IsWhole)
    (x0 x1 : Vec F S8000x128 .bf16) (x2 : Vec F S8000x5 .bf16) (x3 x4 : Vec F S128x128 .bf16) (x5 : Vec F S5x128 .bf16)
    (x6 : Vec F S128 .f32) (x7 : Vec F S128x128 .bf16) (x8 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBlock x0 x1 x2 x3 x4 x5 x6 x7 x8)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outBlock_cover _)

/-! ## The pipeline's proof data -/

/-- On core `c`: the arrays as the call finds them; after the body at point `t` each input's buffer at its block and
    the output's at `outBlock` of the input blocks; the kernel keeps nothing of its own between points. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => outBlock (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) : (dats m 0 c).after 9 t = outBlock (blockAt m c 0 t) (blockAt m c 1 t) (blockAt m c 2 t) (blockAt m c 3 t) (blockAt m c 4 t) (blockAt m c 5 t) (blockAt m c 6 t) (blockAt m c 7 t) (blockAt m c 8 t) := by dsimp only [dats]

theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d
theorem before4 (c : Dev nD) (t : Fin cfg0.N) (d) : (dats m 0 c).before 4 t d = blockAt m c 4 t :=
  before4_of m (dats m 0 c) (A_eq m c 4) (after4 m c) t d
theorem before5 (c : Dev nD) (t : Fin cfg0.N) (d) : (dats m 0 c).before 5 t d = blockAt m c 5 t :=
  before5_of m (dats m 0 c) (A_eq m c 5) (after5 m c) t d
theorem before6 (c : Dev nD) (t : Fin cfg0.N) (d) : (dats m 0 c).before 6 t d = blockAt m c 6 t :=
  before6_of m (dats m 0 c) (A_eq m c 6) (after6 m c) t d
theorem before7 (c : Dev nD) (t : Fin cfg0.N) (d) : (dats m 0 c).before 7 t d = blockAt m c 7 t :=
  before7_of m (dats m 0 c) (A_eq m c 7) (after7 m c) t d
theorem before8 (c : Dev nD) (t : Fin cfg0.N) (d) : (dats m 0 c).before 8 t d = blockAt m c 8 t :=
  before8_of m (dats m 0 c) (A_eq m c 8) (after8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every window's array ends at what the pipeline wrote back of the
    proof data, every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.EdgeMlp

end
-- ==== Proof.EdgeNetwork.lean ====
/-
  The two-layer network on one edge, over the extended reals, and the regrouping of its first contraction.

  One edge's input row has 261 entries: the destination node's 2 features, its 128 hidden values, the source node's
  2 features, its 128 hidden values, and the edge's distance. The first layer contracts the row with a 261 × 128
  weight, adds a bias and clips at zero; the second contracts the 128 hidden values with a 128 × 128 weight, adds a
  bias and clips at zero.

  The contraction over the 261 positions can be taken in one sum (positions in order) or as three: the 128
  destination-hidden positions 2 … 129, the 128 source-hidden positions 132 … 259, and the five narrow positions
  0, 1, 130, 131, 260. Only commutativity and associativity of addition are used, so the regrouping holds on the
  extended reals with no finiteness assumption.
-/
import Mathlib

noncomputable section

namespace Cert.EdgeNetwork

open Finset

/-! ## A sum over 261 positions, by bands -/

/-- A sum over `Fin 261` is the sum over positions `2 + k` (k < 128), plus the sum over positions `132 + k`
    (k < 128), plus the five terms at 0, 1, 130, 131, 260. In any commutative additive monoid. -/
theorem sum_bands {M : Type} [AddCommMonoid M] (f : Fin 261 → M) :
    ∑ k, f k = (∑ k : Fin 128, f ⟨2 + k.val, by omega⟩) + (∑ k : Fin 128, f ⟨132 + k.val, by omega⟩)
      + (f 0 + f 1 + f 130 + f 131 + f 260) := by
  have h1 : ∑ k : Fin (2 + 128 + 2 + 128 + 1), f k
      = (∑ k : Fin 2, f (Fin.castAdd 1 (Fin.castAdd 128 (Fin.castAdd 2 (Fin.castAdd 128 k)))))
        + (∑ k : Fin 128, f (Fin.castAdd 1 (Fin.castAdd 128 (Fin.castAdd 2 (Fin.natAdd 2 k)))))
        + (∑ k : Fin 2, f (Fin.castAdd 1 (Fin.castAdd 128 (Fin.natAdd (2 + 128) k))))
        + (∑ k : Fin 128, f (Fin.castAdd 1 (Fin.natAdd (2 + 128 + 2) k)))
        + (∑ k : Fin 1, f (Fin.natAdd (2 + 128 + 2 + 128) k)) := by
    rw [Fin.sum_univ_add, Fin.sum_univ_add, Fin.sum_univ_add, Fin.sum_univ_add]
  have h2 : ∑ k : Fin 261, f k = ∑ k : Fin (2 + 128 + 2 + 128 + 1), f k := rfl
  rw [h2, h1, Fin.sum_univ_two, Fin.sum_univ_two, Fin.sum_univ_one]
  have e0 : Fin.castAdd 1 (Fin.castAdd 128 (Fin.castAdd 2 (Fin.castAdd 128 (0 : Fin 2)))) = (0 : Fin 261) := rfl
  have e1 : Fin.castAdd 1 (Fin.castAdd 128 (Fin.castAdd 2 (Fin.castAdd 128 (1 : Fin 2)))) = (1 : Fin 261) := rfl
  have e130 : Fin.castAdd 1 (Fin.castAdd 128 (Fin.natAdd (2 + 128) (0 : Fin 2))) = (130 : Fin 261) := rfl
  have e131 : Fin.castAdd 1 (Fin.castAdd 128 (Fin.natAdd (2 + 128) (1 : Fin 2))) = (131 : Fin 261) := rfl
  have e260 : Fin.natAdd (2 + 128 + 2 + 128) (0 : Fin 1) = (260 : Fin 261) := rfl
  have eA : ∀ k : Fin 128, Fin.castAdd 1 (Fin.castAdd 128 (Fin.castAdd 2 (Fin.natAdd 2 k))) = (⟨2 + k.val, by omega⟩ : Fin 261) :=
    fun k => Fin.ext rfl
  have eB : ∀ k : Fin 128, Fin.castAdd 1 (Fin.natAdd (2 + 128 + 2) k) = (⟨132 + k.val, by omega⟩ : Fin 261) :=
    fun k => Fin.ext rfl
  simp only [e0, e1, e130, e131, e260, eA, eB]
  abel

/-! ## The network on one edge -/

/-- The hidden value `h` of one edge: the contraction of its 261 inputs with column `h` of the first weight, taken by
    bands, plus the bias, clipped at zero. -/
def hidden (dF : Fin 2 → EReal) (dH : Fin 128 → EReal) (sF : Fin 2 → EReal) (sH : Fin 128 → EReal) (dist : EReal)
    (W1 : Fin 261 → Fin 128 → EReal) (b1 : Fin 128 → EReal) (h : Fin 128) : EReal :=
  max ((∑ k : Fin 128, dH k * W1 ⟨2 + k.val, by omega⟩ h) + (∑ k : Fin 128, sH k * W1 ⟨132 + k.val, by omega⟩ h)
      + (dF 0 * W1 0 h + dF 1 * W1 1 h + sF 0 * W1 130 h + sF 1 * W1 131 h + dist * W1 260 h) + b1 h) 0

/-- An output value of one edge from its hidden values. -/
def output (hid : Fin 128 → EReal) (W2 : Fin 128 → Fin 128 → EReal) (b2 : Fin 128 → EReal) (q : Fin 128) : EReal :=
  max ((∑ h : Fin 128, hid h * W2 h q) + b2 q) 0

/-- The hidden value with the contraction taken in ONE sum over the joined row `row` (the five pieces side by side). -/
theorem hidden_of_joined (dF : Fin 2 → EReal) (dH : Fin 128 → EReal) (sF : Fin 2 → EReal) (sH : Fin 128 → EReal) (dist : EReal)
    (W1 : Fin 261 → Fin 128 → EReal) (b1 : Fin 128 → EReal) (h : Fin 128) (row : Fin 261 → EReal)
    (r0 : row 0 = dF 0) (r1 : row 1 = dF 1) (rA : ∀ k : Fin 128, row ⟨2 + k.val, by omega⟩ = dH k)
    (r130 : row 130 = sF 0) (r131 : row 131 = sF 1) (rB : ∀ k : Fin 128, row ⟨132 + k.val, by omega⟩ = sH k)
    (r260 : row 260 = dist) :
    max ((∑ k : Fin 261, row k * W1 k h) + b1 h) 0 = hidden dF dH sF sH dist W1 b1 h := by
  unfold hidden
  rw [sum_bands (fun k => row k * W1 k h)]
  simp only [r0, r1, rA, r130, r131, rB, r260]

/-- The hidden value with the contraction taken as three products: the two hidden blocks against their bands of the
    weight, and the five narrow inputs `nr` packed side by side against the five matching rows `wn` of the weight. -/
theorem hidden_of_packed (dF : Fin 2 → EReal) (dH : Fin 128 → EReal) (sF : Fin 2 → EReal) (sH : Fin 128 → EReal) (dist : EReal)
    (W1 : Fin 261 → Fin 128 → EReal) (b1 : Fin 128 → EReal) (h : Fin 128)
    (nr : Fin 5 → EReal) (wd ws : Fin 128 → EReal) (wn : Fin 5 → EReal)
    (n0 : nr 0 = dF 0) (n1 : nr 1 = dF 1) (n2 : nr 2 = sF 0) (n3 : nr 3 = sF 1) (n4 : nr 4 = dist)
    (hd : ∀ k : Fin 128, wd k = W1 ⟨2 + k.val, by omega⟩ h) (hs : ∀ k : Fin 128, ws k = W1 ⟨132 + k.val, by omega⟩ h)
    (w0 : wn 0 = W1 0 h) (w1 : wn 1 = W1 1 h) (w2 : wn 2 = W1 130 h) (w3 : wn 3 = W1 131 h) (w4 : wn 4 = W1 260 h) :
    max ((∑ k : Fin 128, dH k * wd k) + (∑ k : Fin 128, sH k * ws k) + (∑ k : Fin 5, nr k * wn k) + b1 h) 0
      = hidden dF dH sF sH dist W1 b1 h := by
  unfold hidden
  rw [Fin.sum_univ_five]
  simp only [n0, n1, n2, n3, n4, hd, hs, w0, w1, w2, w3, w4]

end Cert.EdgeNetwork

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.EdgeMlpArray.lean ====
/-
  The idealized kernel's output array as one function of the nine arrays its call is handed.

  At the ideal instance a change of float format is the identity, a matrix product into a zero accumulator is the plain
  sum of products, and the bias row is added to every row. So the value the body stores at row p, column q of its block
  depends on row p of the three per-edge blocks only: the hidden values of that row — three contractions (128, 128 and 5
  terms) plus the first bias, clipped at zero — contracted with column q of the second weight, plus the second bias,
  clipped at zero (`payload_apply`).

  Point t's blocks of the three per-edge arrays are their rows 8000·t … 8000·t + 7999, the six small arrays are read
  whole at every point, and point t writes back rows 8000·t … 8000·t + 7999 of the result (`flushed_eq`). The 100
  points' blocks cover all 800000 rows (`covered`), so the result array ends at `arrayValue` (`final`): at
  (e, q) the value above of row e of the per-edge arrays.
-/
import proofs.«134984_j5403068859067_2_alg».proof.Proof.EdgeMlpRun
import proofs.«134984_j5403068859067_2_alg».proof.Proof.EdgeNetwork
import proofs.«134984_j5403068859067_2_alg».proof.Proof.LibMatProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeMlp

open Cert.KernelIdeal Cert.KernelIdeal.Gen Cert.EdgeNetwork
open Idealize.ShloMosaic Idealize.ShloMosaic.TcCoe Idealize.ShloMosaic.ValueIdx Idealize.SL.Sem
open Idealize.ShloMosaic.Pipeline (Dat)

/-! ## The body's operations read at an index -/

/-- The product of an 8000-row block with a 128 × 128 weight, at (p, h). -/
theorem product_wide (l : FVec Ideal S8000x128 .bf16) (r : FVec Ideal S128x128 .bf16) (p : Fin 8000) (h : Fin 128) :
    matmul (F := Ideal) dot_S8000x128_S128x128_S8000x128_1_0_0_1_n_n none l r (constant (F := Ideal) S8000x128 .f32 0x00000000#32) (ix2 p h)
      = ∑ k : Fin 128, l (ix2 p k) * r (ix2 k h) :=
  Cert.LibMatProduct.matmul_zero_apply dot_S8000x128_S128x128_S8000x128_1_0_0_1_n_n none rfl rfl rfl rfl rfl rfl l r p h

/-- The product of the 8000 × 5 block of narrow inputs with their 5 × 128 weight rows, at (p, h). -/
theorem product_narrow (l : FVec Ideal S8000x5 .bf16) (r : FVec Ideal S5x128 .bf16) (p : Fin 8000) (h : Fin 128) :
    matmul (F := Ideal) dot_S8000x5_S5x128_S8000x128_1_0_0_1_n_n none l r (constant (F := Ideal) S8000x128 .f32 0x00000000#32) (ix2 p h)
      = ∑ k : Fin 5, l (ix2 p k) * r (ix2 k h) :=
  Cert.LibMatProduct.matmul_zero_apply dot_S8000x5_S5x128_S8000x128_1_0_0_1_n_n none rfl rfl rfl rfl rfl rfl l r p h

/-- A bias vector laid out as one row and repeated down the 8000 rows, at (p, h). -/
theorem bias_apply (v : FVec Ideal S128 .f32) (p : Fin 8000) (h : Fin 128) :
    broadcastTo S8000x128 (shapeCast S1x128 v shapeCasts_S128_S1x128) broadcasts_S1x128_S8000x128 (ix2 p h) = v (ix1 h) :=
  (broadcastTo_1b_ab_apply _ broadcasts_S1x128_S8000x128 p h).trans (shapeCast_a_1a_apply v shapeCasts_S128_S1x128 0 h)

/-- The clipping level is zero. -/
theorem zero_apply (i : S8000x128.Idx) : broadcast S8000x128 (FloatOps.ofBits (F := Ideal) .f32 0x00000000#32) i = 0 :=
  Ideal.ofBits_zero_f32

/-- The hidden values the body computes, at row p and hidden position h. -/
theorem hidden_apply (v0 v5 : FVec Ideal S8000x128 .bf16) (v11 : FVec Ideal S8000x5 .bf16) (v2 v7 : FVec Ideal S128x128 .bf16)
    (v13 : FVec Ideal S5x128 .bf16) (v17 : FVec Ideal S128 .f32) (p : Fin 8000) (h : Fin 128) :
    truncf (F := Ideal) .bf16
        (maximumf
          (addf
            (addf
              (addf
                (matmul (F := Ideal) dot_S8000x128_S128x128_S8000x128_1_0_0_1_n_n none v0 v2 (constant (F := Ideal) S8000x128 .f32 0x00000000#32))
                (matmul (F := Ideal) dot_S8000x128_S128x128_S8000x128_1_0_0_1_n_n none v5 v7 (constant (F := Ideal) S8000x128 .f32 0x00000000#32)))
              (matmul (F := Ideal) dot_S8000x5_S5x128_S8000x128_1_0_0_1_n_n none v11 v13 (constant (F := Ideal) S8000x128 .f32 0x00000000#32)))
            (broadcastTo S8000x128 (shapeCast S1x128 v17 shapeCasts_S128_S1x128) broadcasts_S1x128_S8000x128))
          (broadcast S8000x128 (FloatOps.ofBits (F := Ideal) .f32 0x00000000#32)))
        bitsLt_bf16_f32 (ix2 p h)
      = max ((∑ k : Fin 128, v0 (ix2 p k) * v2 (ix2 k h)) + (∑ k : Fin 128, v5 (ix2 p k) * v7 (ix2 k h))
          + (∑ k : Fin 5, v11 (ix2 p k) * v13 (ix2 k h)) + v17 (ix1 h)) 0 :=
  congrArg₂ max
    (congrArg₂ (· + ·)
      (congrArg₂ (· + ·) (congrArg₂ (· + ·) (product_wide v0 v2 p h) (product_wide v5 v7 p h)) (product_narrow v11 v13 p h))
      (bias_apply v17 p h))
    (zero_apply _)

/-- The value the body stores, at row p and column q of its block: the network's output from the hidden values of row p. -/
theorem payload_apply (v0 v5 : Vec Ideal S8000x128 .bf16) (v11 : Vec Ideal S8000x5 .bf16) (v2 v7 v24 : Vec Ideal S128x128 .bf16)
    (v13 : Vec Ideal S5x128 .bf16) (v17 v27 : Vec Ideal S128 .f32) (p : Fin 8000) (q : Fin 128) :
    k0_pay1 (F := Ideal) v0 v2 v5 v7 v11 v13 v17 v24 v27 (ix2 p q)
      = output (fun h => max ((∑ k : Fin 128, v0 (ix2 p k) * v2 (ix2 k h)) + (∑ k : Fin 128, v5 (ix2 p k) * v7 (ix2 k h))
            + (∑ k : Fin 5, v11 (ix2 p k) * v13 (ix2 k h)) + v17 (ix1 h)) 0)
          (fun h q => v24 (ix2 h q)) (fun q => v27 (ix1 q)) q := by
  unfold k0_pay1
  simp only [shapeCast_self]
  refine (congrArg₂ max (congrArg₂ (· + ·) (product_wide _ v24 p q) (bias_apply v27 p q)) (zero_apply _)).trans ?_
  unfold output
  simp only [hidden_apply]

/-! ## From the blocks to the array -/

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- The one store covers the buffer and every load reads a whole buffer: the output buffer holds the payload of the
    nine input buffers. -/
theorem outBlock_eq (x0 x1 : Vec Ideal S8000x128 .bf16) (x2 : Vec Ideal S8000x5 .bf16) (x3 x4 : Vec Ideal S128x128 .bf16) (x5 : Vec Ideal S5x128 .bf16)
    (x6 : Vec Ideal S128 .f32) (x7 : Vec Ideal S128x128 .bf16) (x8 : Vec Ideal S128 .f32) :
    outBlock x0 x1 x2 x3 x4 x5 x6 x7 x8 = k0_pay1 x0 x3 x1 x4 x2 x5 x6 x7 x8 := by
  unfold outBlock
  rw [View.canon_unit_zero off2]
  simp only [View.ld_unit_zero (S := S8000x128) off2, View.ld_unit_zero (S := S8000x5) off2, View.ld_unit_zero (S := S128x128) off2,
    View.ld_unit_zero (S := S5x128) off2, View.ld_unit_zero (S := S128) off1]

/-- The result as one function of the nine arrays the call is handed: at (e, q), the network's output at column q
    from the hidden values of row e. -/
def packedValue (a0 a1 : S800000x128.Idx → EReal) (a2 : S800000x5.Idx → EReal) (a3 a4 : S128x128.Idx → EReal) (a5 : S5x128.Idx → EReal)
    (a6 : S128.Idx → EReal) (a7 : S128x128.Idx → EReal) (a8 : S128.Idx → EReal) : S800000x128.Idx → EReal := fun i =>
  output (fun h => max ((∑ k : Fin 128, a0 (ix2 (i 0) k) * a3 (ix2 k h)) + (∑ k : Fin 128, a1 (ix2 (i 0) k) * a4 (ix2 k h))
        + (∑ k : Fin 5, a2 (ix2 (i 0) k) * a5 (ix2 k h)) + a6 (ix1 h)) 0)
      (fun h q => a7 (ix2 h q)) (fun q => a8 (ix1 q)) (i 1)

/-- That function of the arrays as the call finds them on core `c`. -/
def arrayValue (c : Dev nD) : S800000x128.Idx → EReal :=
  packedValue (V m c main_v16) (V m c main_v30) (V m c main_v32) (V m c main_v34) (V m c main_v36) (V m c main_v41)
    (V m c main_arg6) (V m c main_v42) (V m c main_arg8)

/-- The printed index maps over the grid: the per-edge windows and the result's are at block row `t`, the others at 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row p of point t's block of the destination-hidden rows is row e = 8000·t + p of the array. -/
theorem read0 (c : Dev nD) (t : Fin cfg0.N) (p : Fin 8000) (k : Fin 128) (e : Fin 800000) (he : e.val = t.val * 8000 + p.val) :
    blockAt m c 0 t (ix2 p k) = V m c main_v16 (ix2 e k) := by
  show V m c main_v16 (((cfg0.win 0).blk t).view.emb (ix2 p k)) = V m c main_v16 (ix2 e k)
  refine congrArg _ (funext fun a => Fin.ext ?_)
  obtain ⟨h0, h1, -⟩ := index_facts t
  match a with
  | ⟨0, _⟩ => show win0_0.index t (0 : Fin 2) * 8000 + 1 * p.val = e.val; omega
  | ⟨1, _⟩ => show win0_0.index t (1 : Fin 2) * 128 + 1 * k.val = k.val; omega

/-- The same for the source-hidden rows. -/
theorem read1 (c : Dev nD) (t : Fin cfg0.N) (p : Fin 8000) (k : Fin 128) (e : Fin 800000) (he : e.val = t.val * 8000 + p.val) :
    blockAt m c 1 t (ix2 p k) = V m c main_v30 (ix2 e k) := by
  show V m c main_v30 (((cfg0.win 1).blk t).view.emb (ix2 p k)) = V m c main_v30 (ix2 e k)
  refine congrArg _ (funext fun a => Fin.ext ?_)
  obtain ⟨-, -, h0, h1, -⟩ := index_facts t
  match a with
  | ⟨0, _⟩ => show win0_1.index t (0 : Fin 2) * 8000 + 1 * p.val = e.val; omega
  | ⟨1, _⟩ => show win0_1.index t (1 : Fin 2) * 128 + 1 * k.val = k.val; omega

/-- The same for the five narrow columns. -/
theorem read2 (c : Dev nD) (t : Fin cfg0.N) (p : Fin 8000) (k : Fin 5) (e : Fin 800000) (he : e.val = t.val * 8000 + p.val) :
    blockAt m c 2 t (ix2 p k) = V m c main_v32 (ix2 e k) := by
  show V m c main_v32 (((cfg0.win 2).blk t).view.emb (ix2 p k)) = V m c main_v32 (ix2 e k)
  refine congrArg _ (funext fun a => Fin.ext ?_)
  obtain ⟨-, -, -, -, h0, h1, -⟩ := index_facts t
  match a with
  | ⟨0, _⟩ => show win0_2.index t (0 : Fin 2) * 8000 + 1 * p.val = e.val; omega
  | ⟨1, _⟩ => show win0_2.index t (1 : Fin 2) * 5 + 1 * k.val = k.val; omega

/-- The small arrays are read whole at every point. -/
theorem read3 (c : Dev nD) (t : Fin cfg0.N) (k h : Fin 128) : blockAt m c 3 t (ix2 k h) = V m c main_v34 (ix2 k h) := by
  show V m c main_v34 (((cfg0.win 3).blk t).view.emb (ix2 k h)) = V m c main_v34 (ix2 k h)
  refine congrArg _ (funext fun a => Fin.ext ?_)
  obtain ⟨-, -, -, -, -, -, h0, h1, -⟩ := index_facts t
  match a with
  | ⟨0, _⟩ => show win0_3.index t (0 : Fin 2) * 128 + 1 * k.val = k.val; omega
  | ⟨1, _⟩ => show win0_3.index t (1 : Fin 2) * 128 + 1 * h.val = h.val; omega

theorem read4 (c : Dev nD) (t : Fin cfg0.N) (k h : Fin 128) : blockAt m c 4 t (ix2 k h) = V m c main_v36 (ix2 k h) := by
  show V m c main_v36 (((cfg0.win 4).blk t).view.emb (ix2 k h)) = V m c main_v36 (ix2 k h)
  refine congrArg _ (funext fun a => Fin.ext ?_)
  obtain ⟨-, -, -, -, -, -, -, -, h0, h1, -⟩ := index_facts t
  match a with
  | ⟨0, _⟩ => show win0_4.index t (0 : Fin 2) * 128 + 1 * k.val = k.val; omega
  | ⟨1, _⟩ => show win0_4.index t (1 : Fin 2) * 128 + 1 * h.val = h.val; omega

theorem read5 (c : Dev nD) (t : Fin cfg0.N) (k : Fin 5) (h : Fin 128) : blockAt m c 5 t (ix2 k h) = V m c main_v41 (ix2 k h) := by
  show V m c main_v41 (((cfg0.win 5).blk t).view.emb (ix2 k h)) = V m c main_v41 (ix2 k h)
  refine congrArg _ (funext fun a => Fin.ext ?_)
  obtain ⟨-, -, -, -, -, -, -, -, -, -, h0, h1, -⟩ := index_facts t
  match a with
  | ⟨0, _⟩ => show win0_5.index t (0 : Fin 2) * 5 + 1 * k.val = k.val; omega
  | ⟨1, _⟩ => show win0_5.index t (1 : Fin 2) * 128 + 1 * h.val = h.val; omega

theorem read6 (c : Dev nD) (t : Fin cfg0.N) (h : Fin 128) : blockAt m c 6 t (ix1 h) = V m c main_arg6 (ix1 h) := by
  show V m c main_arg6 (((cfg0.win 6).blk t).view.emb (ix1 h)) = V m c main_arg6 (ix1 h)
  refine congrArg _ (funext fun a => Fin.ext ?_)
  obtain ⟨-, -, -, -, -, -, -, -, -, -, -, -, h0, -⟩ := index_facts t
  match a with
  | ⟨0, _⟩ => show win0_6.index t (0 : Fin 1) * 128 + 1 * h.val = h.val; omega

theorem read7 (c : Dev nD) (t : Fin cfg0.N) (k h : Fin 128) : blockAt m c 7 t (ix2 k h) = V m c main_v42 (ix2 k h) := by
  show V m c main_v42 (((cfg0.win 7).blk t).view.emb (ix2 k h)) = V m c main_v42 (ix2 k h)
  refine congrArg _ (funext fun a => Fin.ext ?_)
  obtain ⟨-, -, -, -, -, -, -, -, -, -, -, -, -, h0, h1, -⟩ := index_facts t
  match a with
  | ⟨0, _⟩ => show win0_7.index t (0 : Fin 2) * 128 + 1 * k.val = k.val; omega
  | ⟨1, _⟩ => show win0_7.index t (1 : Fin 2) * 128 + 1 * h.val = h.val; omega

theorem read8 (c : Dev nD) (t : Fin cfg0.N) (h : Fin 128) : blockAt m c 8 t (ix1 h) = V m c main_arg8 (ix1 h) := by
  show V m c main_arg8 (((cfg0.win 8).blk t).view.emb (ix1 h)) = V m c main_arg8 (ix1 h)
  refine congrArg _ (funext fun a => Fin.ext ?_)
  obtain ⟨-, -, -, -, -, -, -, -, -, -, -, -, -, -, -, h0, -⟩ := index_facts t
  match a with
  | ⟨0, _⟩ => show win0_8.index t (0 : Fin 1) * 128 + 1 * h.val = h.val; omega

/-- Position (p, q) of point t's block of the result is position (8000·t + p, q) of the array. -/
theorem emb9 (t : Fin cfg0.N) (p : Fin 8000) (q : Fin 128) (e : Fin 800000) (he : e.val = t.val * 8000 + p.val) :
    ((cfg0.win 9).blk t).view.emb (ix2 p q) = ix2 e q := by
  refine funext fun a => Fin.ext ?_
  obtain ⟨-, -, -, -, -, -, -, -, -, -, -, -, -, -, -, -, h0, h1⟩ := index_facts t
  match a with
  | ⟨0, _⟩ => show win0_9.index t (0 : Fin 2) * 8000 + 1 * p.val = e.val; omega
  | ⟨1, _⟩ => show win0_9.index t (1 : Fin 2) * 128 + 1 * q.val = q.val; omega

/-- What point t writes back is block t of `arrayValue`. -/
theorem flushed_eq (c : Dev nD) (t : Fin cfg0.N) :
    (dats m 0 c).flushed 9 t = ((cfg0.win 9).blk t).view.read (Elt Ideal) (arrayValue m c) := by
  show (cfg0.win 9).cut (grid0.coords t) ((dats m 0 c).after 9 t) = _
  rw [after9, outBlock_eq]
  funext j
  obtain ⟨p, q, rfl⟩ : ∃ (p : Fin 8000) (q : Fin 128), j = ix2 p q := ⟨j 0, j 1, eq_ix2 j⟩
  have ht : t.val < 100 := lt_of_lt_of_eq t.isLt (N_0 : cfg0.N = 100)
  let e : Fin 800000 := ⟨t.val * 8000 + p.val, by have := p.isLt; omega⟩
  have he : e.val = t.val * 8000 + p.val := rfl
  show k0_pay1 (F := Ideal) (blockAt m c 0 t) (blockAt m c 3 t) (blockAt m c 1 t) (blockAt m c 4 t) (blockAt m c 2 t) (blockAt m c 5 t)
      (blockAt m c 6 t) (blockAt m c 7 t) (blockAt m c 8 t) (ix2 p q) = arrayValue m c (((cfg0.win 9).blk t).view.emb (ix2 p q))
  rw [payload_apply, emb9 t p q e he]
  unfold arrayValue packedValue
  simp only [read0 m c t p _ e he, read1 m c t p _ e he, read2 m c t p _ e he, read3, read4, read5, read6, read7, read8]

/-- An index of the result is in point t's block iff each coordinate is in the block's range on its axis. -/
theorem mem_block (t : Fin cfg0.N) (i : S800000x128.Idx) :
    i ∈ ((cfg0.win 9).blk t).view.set ↔ ∀ a : Fin 2, win0_9.index t a * S8000x128.size a ≤ (i a).val ∧ (i a).val < win0_9.index t a * S8000x128.size a + S8000x128.size a := by
  show i ∈ ((View.whole main_v43).slice (win0_9.rect t)).set ↔ _
  rw [View.set_slice_whole, Rect.mem_set_unit]
  exact Iff.rfl

/-- Every row of the result is in some point's block: row e in point e / 8000's. -/
theorem covered (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  let t : Fin cfg0.N := ⟨(i 0).val / 8000, by rw [show cfg0.N = 100 from N_0]; omega⟩
  have htv : t.val = (i 0).val / 8000 := rfl
  refine ⟨t, flush0_9 t, ?_⟩
  rw [mem_block]
  obtain ⟨-, -, -, -, -, -, -, -, -, -, -, -, -, -, -, -, h0, h1⟩ := index_facts t
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 128 ≤ (i 1).val ∧ (i 1).val < win0_9.index t (1 : Fin 2) * 128 + 128; omega

/-- The result array after the run. -/
theorem final (c : Dev nD) : (dats m 0 c).arrAt 9 cfg0.N = arrayValue m c :=
  (dats m 0 c).arrAt_eq_of_cover 9 (arrayValue m c) (fun t _ => flushed_eq m c t) covered

/-- The run with the result named and the arguments kept. -/
theorem run_value : θ_run defs (onTc (τ := τ) (main (F := Ideal))) ⟨m, fun _ => 0, ρ⟩ fun r => ∀ c : Dev nD,
      r.2.mem ((c.tc : Thread nD τ).loc main_v43) = arrayValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c)))⟩)
    (run_main m ρ)

end Cert.KernelIdeal.EdgeMlp

end
-- ==== Proof.LibNaryThree.lean ====
/-
  A host operation over a literal family of three operands, read at its result.

  A three-piece `stablehlo.concatenate` prints as `StableHlo.nary ![x, a, b] y f`. Its result at its own reference is
  `f` of the three operands' contents, each AT ITS OWN REFERENCE (`Fin.cons` over the literal positions 0, 1, 2) rather
  than under a binder over the family's index — so that a pass which rewrites each operation's result goes on into the
  operands. Stated with the result reference un-indexed, for use in a `simp only` pass beside the library's
  `nullary_result'`, `unary_result'`, … (Lib/StableHlo/Run.lean has this form for four operands).
-/
import Idealize.ShloMosaic.Lib.StableHlo.Run

noncomputable section

namespace Cert.LibNaryThree

open Idealize.ShloMosaic Idealize.ShloMosaic.StableHlo Idealize.SL.Sem

/-- The result of a three-operand host operation, with each operand's contents at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNaryThree

end
-- ==== Proof.EdgeMlpEntry.lean ====
/-
  What the seven host-written arrays hold when the pallas_call is entered, as terms of @main's arguments.

  Before the call @main recasts the two node tables and the distances to the narrow float format, normalises each
  index array the way jnp indexing does (a negative index counts from the end: +50000) and lays it out as a column,
  gathers the destination and the source rows of both tables, joins the two pairs of feature columns and the distance
  column into five narrow columns, cuts the first weight into its row bands 2…129 and 132…259, joins its rows
  0, 1, 130, 131, 260 into a five-row weight, and recasts the second weight. Each array below is that composition,
  read off the operations in order.
-/
import proofs.«134984_j5403068859067_2_alg».proof.Proof.EdgeMlpRun
import proofs.«134984_j5403068859067_2_alg».proof.Proof.LibNaryThree
import Idealize.ShloMosaic.Lib.StableHlo.Run
import Idealize.ShloMosaic.PureOps.Ideal.Laws

set_option maxRecDepth 16384

noncomputable section

namespace Cert.KernelIdeal.EdgeMlp

open Cert.KernelIdeal Cert.KernelIdeal.Gen
open Idealize.ShloMosaic Idealize.ShloMosaic.TcCoe Idealize.SL.Sem Idealize.ShloMosaic.StableHlo

/-- An index array normalised as jnp does and laid out as a column of start indices. -/
def startColumn (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The feature rows of the nodes an index array names. -/
def featureRows (x0 : (⟨S50000x2, .f32⟩ : BufTy).Contents (Elt Ideal)) (x : (⟨S800000, .i32⟩ : BufTy).Contents (Elt Ideal)) :
    (⟨S800000x2, .bf16⟩ : BufTy).Contents (Elt Ideal) :=
  Host.gather gather_S50000x2_S800000x1_S800000x2_1_0_n_n_0_1_12 (truncf (F := Ideal) .bf16 x0 bitsLt_bf16_f32) (startColumn x)

/-- The hidden rows of the nodes an index array names. -/
def hiddenRows (x1 : (⟨S50000x128, .f32⟩ : BufTy).Contents (Elt Ideal)) (x : (⟨S800000, .i32⟩ : BufTy).Contents (Elt Ideal)) :
    (⟨S800000x128, .bf16⟩ : BufTy).Contents (Elt Ideal) :=
  Host.gather gather_S50000x128_S800000x1_S800000x128_1_0_n_n_0_1_1128 (truncf (F := Ideal) .bf16 x1 bitsLt_bf16_f32) (startColumn x)

/-- The distances as one column. -/
def distanceColumn (x2 : (⟨S800000, .f32⟩ : BufTy).Contents (Elt Ideal)) : (⟨S800000x1, .bf16⟩ : BufTy).Contents (Elt Ideal) :=
  broadcastInDim S800000x1 ![0] bcast_S800000_S800000x1_0 (truncf (F := Ideal) .bf16 x2 bitsLt_bf16_f32)

/-- The five narrow columns: destination features, source features, distance. -/
def narrowColumns (x0 : (⟨S50000x2, .f32⟩ : BufTy).Contents (Elt Ideal)) (x2 : (⟨S800000, .f32⟩ : BufTy).Contents (Elt Ideal))
    (x3 x4 : (⟨S800000, .i32⟩ : BufTy).Contents (Elt Ideal)) : (⟨S800000x5, .bf16⟩ : BufTy).Contents (Elt Ideal) :=
  concatenate S800000x5 1 [⟨S800000x2, featureRows x0 x4⟩, ⟨S800000x2, featureRows x0 x3⟩, ⟨S800000x1, distanceColumn x2⟩]
    concatenates_S800000x2_S800000x2_S800000x1_S800000x5_d1

/-- The five rows of the first weight that meet the narrow columns. -/
def narrowWeight (x5 : (⟨S261x128, .f32⟩ : BufTy).Contents (Elt Ideal)) : (⟨S5x128, .bf16⟩ : BufTy).Contents (Elt Ideal) :=
  truncf (F := Ideal) .bf16
    (concatenate S5x128 0 [⟨S2x128, extractStridedSlice S2x128 ![0, 0] x5 slices_S261x128_S2x128_0_0⟩,
      ⟨S2x128, extractStridedSlice S2x128 ![130, 0] x5 slices_S261x128_S2x128_130_0⟩,
      ⟨S1x128, extractStridedSlice S1x128 ![260, 0] x5 slices_S261x128_S1x128_260_0⟩] concatenates_S2x128_S2x128_S1x128_S5x128_d0)
    bitsLt_bf16_f32

variable (m : (ℓ : Loc nD τ sig) → Buf (Elt Ideal) ℓ)

theorem entry_dstHidden (c : Dev nD) :
    V m c main_v16 = hiddenRows (m ((c : Thread nD τ).loc main_arg1)) (m ((c : Thread nD τ).loc main_arg4)) := by
  dsimp only [V, hostOps0]
  after_results_simp
  rfl

theorem entry_srcHidden (c : Dev nD) :
    V m c main_v30 = hiddenRows (m ((c : Thread nD τ).loc main_arg1)) (m ((c : Thread nD τ).loc main_arg3)) := by
  dsimp only [V, hostOps0]
  after_results_simp
  rfl

theorem entry_narrow (c : Dev nD) :
    V m c main_v32 = narrowColumns (m ((c : Thread nD τ).loc main_arg0)) (m ((c : Thread nD τ).loc main_arg2))
      (m ((c : Thread nD τ).loc main_arg3)) (m ((c : Thread nD τ).loc main_arg4)) := by
  dsimp only [V, hostOps0]
  simp (disch := decide) only [after_cons, after_nil, nullary_result', unary_result', binary_result', ternary_result', Cert.LibNaryThree.nary3_result',
    nullary_result_ne', unary_result_ne', binary_result_ne', ternary_result_ne', nary_result_ne']
  rfl

theorem entry_dstBand (c : Dev nD) :
    V m c main_v34 = truncf (F := Ideal) .bf16 (extractStridedSlice S128x128 ![2, 0] (m ((c : Thread nD τ).loc main_arg5)) slices_S261x128_S128x128_2_0) bitsLt_bf16_f32 := by
  dsimp only [V, hostOps0]
  after_results_simp

theorem entry_srcBand (c : Dev nD) :
    V m c main_v36 = truncf (F := Ideal) .bf16 (extractStridedSlice S128x128 ![132, 0] (m ((c : Thread nD τ).loc main_arg5)) slices_S261x128_S128x128_132_0) bitsLt_bf16_f32 := by
  dsimp only [V, hostOps0]
  after_results_simp

theorem entry_narrowWeight (c : Dev nD) : V m c main_v41 = narrowWeight (m ((c : Thread nD τ).loc main_arg5)) := by
  dsimp only [V, hostOps0]
  simp (disch := decide) only [after_cons, after_nil, nullary_result', unary_result', binary_result', ternary_result', Cert.LibNaryThree.nary3_result',
    nullary_result_ne', unary_result_ne', binary_result_ne', ternary_result_ne', nary_result_ne']
  rfl

theorem entry_secondWeight (c : Dev nD) :
    V m c main_v42 = truncf (F := Ideal) .bf16 (m ((c : Thread nD τ).loc main_arg7)) bitsLt_bf16_f32 := by
  dsimp only [V, hostOps0]
  after_results_simp

end Cert.KernelIdeal.EdgeMlp

end
-- ==== Proof.EdgeMlpRows.lean ====
/-
  The host-written arrays read at an index.

  The five narrow columns at (e, 0…4) are the destination's two features, the source's two features and the distance
  of edge e; the five-row weight at (0…4, h) is rows 0, 1, 130, 131, 260 of the first weight at column h; the two
  128-row bands at (k, h) are rows 2 + k and 132 + k. A change of float format is the identity at the ideal instance.
-/
import proofs.«134984_j5403068859067_2_alg».proof.Proof.EdgeMlpEntry
import Idealize.ShloMosaic.Lib.Pipeline.Value
import Idealize.ShloMosaic.Lib.ValueIdx
import Idealize.ShloMosaic.Lib.ValueLayout

set_option maxRecDepth 16384

noncomputable section

namespace Cert.KernelIdeal.EdgeMlp

open Cert.KernelIdeal Cert.KernelIdeal.Gen
open Idealize.ShloMosaic Idealize.ShloMosaic.TcCoe Idealize.ShloMosaic.ValueIdx Idealize.SL.Sem

variable (x0 : (⟨S50000x2, .f32⟩ : BufTy).Contents (Elt Ideal)) (x2 : (⟨S800000, .f32⟩ : BufTy).Contents (Elt Ideal))
  (x3 x4 : (⟨S800000, .i32⟩ : BufTy).Contents (Elt Ideal)) (x5 : (⟨S261x128, .f32⟩ : BufTy).Contents (Elt Ideal))

/-! ## The five narrow columns -/

/-- Columns 0 and 1 are the destination node's features. -/
theorem narrow_dst (e : Fin 800000) (j : Fin 2) (col : Fin 5) (hc : col.val = j.val) :
    narrowColumns x0 x2 x3 x4 (ix2 e col) = featureRows x0 x4 (ix2 e j) := by
  unfold narrowColumns
  exact concatenate_apply_piece (t := S800000x5) (1 : Fin 2) [⟨S800000x2, featureRows x0 x4⟩, ⟨S800000x2, featureRows x0 x3⟩, ⟨S800000x1, distanceColumn x2⟩] concatenates_S800000x2_S800000x2_S800000x1_S800000x5_d1 (ix2 e col) 0 (by simp) S800000x2 (featureRows x0 x4) rfl rfl 0 rfl (ix2 e j)
    (fun b hb => by match b with | ⟨0, _⟩ => rfl | ⟨1, _⟩ => exact absurd rfl hb) (by show 0 + j.val = col.val; omega)

/-- Columns 2 and 3 are the source node's features. -/
theorem narrow_src (e : Fin 800000) (j : Fin 2) (col : Fin 5) (hc : col.val = 2 + j.val) :
    narrowColumns x0 x2 x3 x4 (ix2 e col) = featureRows x0 x3 (ix2 e j) := by
  unfold narrowColumns
  exact concatenate_apply_piece (t := S800000x5) (1 : Fin 2) [⟨S800000x2, featureRows x0 x4⟩, ⟨S800000x2, featureRows x0 x3⟩, ⟨S800000x1, distanceColumn x2⟩] concatenates_S800000x2_S800000x2_S800000x1_S800000x5_d1 (ix2 e col) 1 (by simp) S800000x2 (featureRows x0 x3) rfl rfl 2 rfl (ix2 e j)
    (fun b hb => by match b with | ⟨0, _⟩ => rfl | ⟨1, _⟩ => exact absurd rfl hb) (by show 2 + j.val = col.val; omega)

/-- Column 4 is the edge's distance. -/
theorem narrow_dist (e : Fin 800000) : narrowColumns x0 x2 x3 x4 (ix2 e (4 : Fin 5)) = x2 (ix1 e) := by
  unfold narrowColumns
  refine (concatenate_apply_piece (t := S800000x5) (1 : Fin 2) [⟨S800000x2, featureRows x0 x4⟩, ⟨S800000x2, featureRows x0 x3⟩, ⟨S800000x1, distanceColumn x2⟩] concatenates_S800000x2_S800000x2_S800000x1_S800000x5_d1 (ix2 e (4 : Fin 5)) 2 (by simp) S800000x1 (distanceColumn x2) rfl rfl 4 rfl (ix2 e (0 : Fin 1))
    (fun b hb => by match b with | ⟨0, _⟩ => rfl | ⟨1, _⟩ => exact absurd rfl hb) rfl).trans ?_
  unfold distanceColumn
  exact broadcastInDim_apply _ bcast_S800000_S800000x1_0 _ (ix2 e (0 : Fin 1)) (ix1 e) (fun a => match a with
    | ⟨0, _⟩ => by show e.val = if (800000 : Nat) = 1 then 0 else e.val; rw [if_neg (by decide)])

/-! ## The first weight's pieces -/

/-- Rows 0 and 1 of the five-row weight are rows 0 and 1 of the first weight. -/
theorem narrowWeight_head (j : Fin 2) (r : Fin 5) (hr : r.val = j.val) (k : Fin 261) (hk : k.val = j.val) (h : Fin 128) :
    narrowWeight x5 (ix2 r h) = x5 (ix2 k h) := by
  refine (show narrowWeight x5 (ix2 r h) = concatenate S5x128 0 [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 r h) from rfl).trans ?_
  refine (concatenate_apply_piece (t := S5x128) (0 : Fin 2) [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 r h) 0 (by simp) S2x128 _ rfl rfl 0 rfl (ix2 j h)
    (fun b hb => by match b with | ⟨0, _⟩ => exact absurd rfl hb | ⟨1, _⟩ => rfl) (by show 0 + j.val = r.val; omega)).trans ?_
  exact slice2_axis0_apply 0 x5 slices_S261x128_S2x128_0_0 j h k (by omega)

/-- Rows 2 and 3 are rows 130 and 131. -/
theorem narrowWeight_mid (j : Fin 2) (r : Fin 5) (hr : r.val = 2 + j.val) (k : Fin 261) (hk : k.val = 130 + j.val) (h : Fin 128) :
    narrowWeight x5 (ix2 r h) = x5 (ix2 k h) := by
  refine (show narrowWeight x5 (ix2 r h) = concatenate S5x128 0 [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 r h) from rfl).trans ?_
  refine (concatenate_apply_piece (t := S5x128) (0 : Fin 2) [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 r h) 1 (by simp) S2x128 _ rfl rfl 2 rfl (ix2 j h)
    (fun b hb => by match b with | ⟨0, _⟩ => exact absurd rfl hb | ⟨1, _⟩ => rfl) (by show 2 + j.val = r.val; omega)).trans ?_
  exact slice2_axis0_apply 130 x5 slices_S261x128_S2x128_130_0 j h k (by omega)

/-- Row 4 is row 260. -/
theorem narrowWeight_last (h : Fin 128) : narrowWeight x5 (ix2 (4 : Fin 5) h) = x5 (ix2 (260 : Fin 261) h) := by
  refine (show narrowWeight x5 (ix2 (4 : Fin 5) h) = concatenate S5x128 0 [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 (4 : Fin 5) h) from rfl).trans ?_
  refine (concatenate_apply_piece (t := S5x128) (0 : Fin 2) [⟨S2x128, extractStridedSlice S2x128 ![0, 0] x5 slices_S261x128_S2x128_0_0⟩, ⟨S2x128, extractStridedSlice S2x128 ![130, 0] x5 slices_S261x128_S2x128_130_0⟩, ⟨S1x128, extractStridedSlice S1x128 ![260, 0] x5 slices_S261x128_S1x128_260_0⟩] concatenates_S2x128_S2x128_S1x128_S5x128_d0 (ix2 (4 : Fin 5) h) 2 (by simp) S1x128 _ rfl rfl 4 rfl (ix2 (0 : Fin 1) h)
    (fun b hb => by match b with | ⟨0, _⟩ => exact absurd rfl hb | ⟨1, _⟩ => rfl) rfl).trans ?_
  exact slice2_axis0_apply 260 x5 slices_S261x128_S1x128_260_0 (0 : Fin 1) h (260 : Fin 261) rfl

/-- The destination-hidden band: row k is row 2 + k of the first weight. -/
theorem dstBand_apply (k h : Fin 128) (r : Fin 261) (hr : r.val = 2 + k.val) :
    truncf (F := Ideal) .bf16 (extractStridedSlice S128x128 ![2, 0] x5 slices_S261x128_S128x128_2_0) bitsLt_bf16_f32 (ix2 k h) = x5 (ix2 r h) :=
  slice2_axis0_apply 2 x5 slices_S261x128_S128x128_2_0 k h r hr

/-- The source-hidden band: row k is row 132 + k. -/
theorem srcBand_apply (k h : Fin 128) (r : Fin 261) (hr : r.val = 132 + k.val) :
    truncf (F := Ideal) .bf16 (extractStridedSlice S128x128 ![132, 0] x5 slices_S261x128_S128x128_132_0) bitsLt_bf16_f32 (ix2 k h) = x5 (ix2 r h) :=
  slice2_axis0_apply 132 x5 slices_S261x128_S128x128_132_0 k h r hr

end Cert.KernelIdeal.EdgeMlp

end
-- ==== Proof.EdgeMlpValue.lean ====
/-
  The idealized kernel's result at an index, as the network's value on the edge over @main's arguments.

  Entry (e, q) of the result is the output at column q from the hidden values of edge e, those computed by three
  products: the gathered destination-hidden row against rows 2…129 of the first weight, the gathered source-hidden row
  against rows 132…259, and the five narrow inputs against rows 0, 1, 130, 131, 260. Reading the host-written arrays
  at their indices and regrouping puts the hidden values in the banded form shared with the reference.
-/
import proofs.«134984_j5403068859067_2_alg».proof.Proof.EdgeMlpArray
import proofs.«134984_j5403068859067_2_alg».proof.Proof.EdgeMlpRows

set_option maxRecDepth 16384

noncomputable section

namespace Cert.KernelIdeal.EdgeMlp

open Cert.KernelIdeal Cert.KernelIdeal.Gen Cert.EdgeNetwork
open Idealize.ShloMosaic Idealize.ShloMosaic.TcCoe Idealize.ShloMosaic.ValueIdx Idealize.SL.Sem

/-- The packed form at (e, q), in coordinates. -/
theorem packedValue_apply (a0 a1 : S800000x128.Idx → EReal) (a2 : S800000x5.Idx → EReal) (a3 a4 : S128x128.Idx → EReal) (a5 : S5x128.Idx → EReal)
    (a6 : S128.Idx → EReal) (a7 : S128x128.Idx → EReal) (a8 : S128.Idx → EReal) (e : Fin 800000) (q : Fin 128) :
    packedValue a0 a1 a2 a3 a4 a5 a6 a7 a8 (ix2 e q)
      = output (fun h => max ((∑ k : Fin 128, a0 (ix2 e k) * a3 (ix2 k h)) + (∑ k : Fin 128, a1 (ix2 e k) * a4 (ix2 k h))
            + (∑ k : Fin 5, a2 (ix2 e k) * a5 (ix2 k h)) + a6 (ix1 h)) 0)
          (fun h q => a7 (ix2 h q)) (fun q => a8 (ix1 q)) q := rfl

/-- The packed form at edge e, column q, of nine arrays that are the host operations' terms of arguments x0 … x8. -/
theorem packed_apply (a0 a1 : S800000x128.Idx → EReal) (a2 : S800000x5.Idx → EReal) (a3 a4 : S128x128.Idx → EReal) (a5 : S5x128.Idx → EReal)
    (a6 : S128.Idx → EReal) (a7 : S128x128.Idx → EReal) (a8 : S128.Idx → EReal)
    (x0 : (⟨S50000x2, .f32⟩ : BufTy).Contents (Elt Ideal)) (x1 : (⟨S50000x128, .f32⟩ : BufTy).Contents (Elt Ideal))
    (x2 : (⟨S800000, .f32⟩ : BufTy).Contents (Elt Ideal)) (x3 x4 : (⟨S800000, .i32⟩ : BufTy).Contents (Elt Ideal))
    (x5 : (⟨S261x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (h0 : a0 = hiddenRows x1 x4) (h1 : a1 = hiddenRows x1 x3) (h2 : a2 = narrowColumns x0 x2 x3 x4)
    (h3 : a3 = truncf (F := Ideal) .bf16 (extractStridedSlice S128x128 ![2, 0] x5 slices_S261x128_S128x128_2_0) bitsLt_bf16_f32)
    (h4 : a4 = truncf (F := Ideal) .bf16 (extractStridedSlice S128x128 ![132, 0] x5 slices_S261x128_S128x128_132_0) bitsLt_bf16_f32)
    (h5 : a5 = narrowWeight x5) (h6 : a6 = x6) (h7 : a7 = truncf (F := Ideal) .bf16 x7 bitsLt_bf16_f32) (h8 : a8 = x8)
    (e : Fin 800000) (q : Fin 128) :
    packedValue a0 a1 a2 a3 a4 a5 a6 a7 a8 (ix2 e q)
      = output (hidden (fun k => featureRows x0 x4 (ix2 e k)) (fun k => hiddenRows x1 x4 (ix2 e k))
          (fun k => featureRows x0 x3 (ix2 e k)) (fun k => hiddenRows x1 x3 (ix2 e k))
          (x2 (ix1 e)) (fun k h => x5 (ix2 k h)) (fun h => x6 (ix1 h)))
          (fun h q => x7 (ix2 h q)) (fun q => x8 (ix1 q)) q := by
  rw [packedValue_apply]
  subst h6 h7 h8
  rw [← h0, ← h1]
  refine congrArg (fun hid => output hid (fun h q => x7 (ix2 h q)) (fun q => a8 (ix1 q)) q) (funext fun h => ?_)
  refine hidden_of_packed (fun k => featureRows x0 x4 (ix2 e k)) (fun k => a0 (ix2 e k))
    (fun k => featureRows x0 x3 (ix2 e k)) (fun k => a1 (ix2 e k))
    (x2 (ix1 e)) (fun k h => x5 (ix2 k h)) (fun h => a6 (ix1 h)) h
    (fun k => a2 (ix2 e k)) (fun k => a3 (ix2 k h)) (fun k => a4 (ix2 k h)) (fun k => a5 (ix2 k h))
    ?n0 ?n1 ?n2 ?n3 ?n4 ?hd ?hs ?w0 ?w1 ?w2 ?w3 ?w4
  case n0 => show a2 (ix2 e 0) = featureRows x0 x4 (ix2 e 0); rw [h2]; exact narrow_dst x0 x2 x3 x4 e 0 0 rfl
  case n1 => show a2 (ix2 e 1) = featureRows x0 x4 (ix2 e 1); rw [h2]; exact narrow_dst x0 x2 x3 x4 e 1 1 rfl
  case n2 => show a2 (ix2 e 2) = featureRows x0 x3 (ix2 e 0); rw [h2]; exact narrow_src x0 x2 x3 x4 e 0 2 rfl
  case n3 => show a2 (ix2 e 3) = featureRows x0 x3 (ix2 e 1); rw [h2]; exact narrow_src x0 x2 x3 x4 e 1 3 rfl
  case n4 => show a2 (ix2 e 4) = x2 (ix1 e); rw [h2]; exact narrow_dist x0 x2 x3 x4 e
  case hd => intro k; show a3 (ix2 k h) = x5 (ix2 ⟨2 + k.val, by omega⟩ h); rw [h3]; exact dstBand_apply x5 k h _ rfl
  case hs => intro k; show a4 (ix2 k h) = x5 (ix2 ⟨132 + k.val, by omega⟩ h); rw [h4]; exact srcBand_apply x5 k h _ rfl
  case w0 => show a5 (ix2 0 h) = x5 (ix2 0 h); rw [h5]; exact narrowWeight_head x5 0 0 rfl 0 rfl h
  case w1 => show a5 (ix2 1 h) = x5 (ix2 1 h); rw [h5]; exact narrowWeight_head x5 1 1 rfl 1 rfl h
  case w2 => show a5 (ix2 2 h) = x5 (ix2 130 h); rw [h5]; exact narrowWeight_mid x5 0 2 rfl 130 rfl h
  case w3 => show a5 (ix2 3 h) = x5 (ix2 131 h); rw [h5]; exact narrowWeight_mid x5 1 3 rfl 131 rfl h
  case w4 => show a5 (ix2 4 h) = x5 (ix2 260 h); rw [h5]; exact narrowWeight_last x5 h

variable (m : (ℓ : Loc nD τ sig) → Buf (Elt Ideal) ℓ)

/-- The result at edge e, column q. -/
theorem result_apply (c : Dev nD) (e : Fin 800000) (q : Fin 128) :
    arrayValue m c (ix2 e q)
      = output (hidden (fun k => featureRows (m ((c : Thread nD τ).loc main_arg0)) (m ((c : Thread nD τ).loc main_arg4)) (ix2 e k)) (fun k => hiddenRows (m ((c : Thread nD τ).loc main_arg1)) (m ((c : Thread nD τ).loc main_arg4)) (ix2 e k))
          (fun k => featureRows (m ((c : Thread nD τ).loc main_arg0)) (m ((c : Thread nD τ).loc main_arg3)) (ix2 e k)) (fun k => hiddenRows (m ((c : Thread nD τ).loc main_arg1)) (m ((c : Thread nD τ).loc main_arg3)) (ix2 e k))
          ((m ((c : Thread nD τ).loc main_arg2)) (ix1 e)) (fun k h => (m ((c : Thread nD τ).loc main_arg5)) (ix2 k h)) (fun h => (m ((c : Thread nD τ).loc main_arg6)) (ix1 h)))
          (fun h q => (m ((c : Thread nD τ).loc main_arg7)) (ix2 h q)) (fun q => (m ((c : Thread nD τ).loc main_arg8)) (ix1 q)) q :=
  packed_apply (V m c main_v16) (V m c main_v30) (V m c main_v32) (V m c main_v34) (V m c main_v36) (V m c main_v41)
    (V m c main_arg6) (V m c main_v42) (V m c main_arg8)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (entry_dstHidden m c) (entry_srcHidden m c) (entry_narrow m c) (entry_dstBand m c) (entry_srcBand m c) (entry_narrowWeight m c)
    (V_main_arg6 m c) (entry_secondWeight m c) (V_main_arg8 m c) e q

end Cert.KernelIdeal.EdgeMlp

end
-- ==== Proof.ReferenceRows.lean ====
/-
  The reference's result at an index.

  The reference joins, per edge, the destination's 2 features, its 128 hidden values, the source's 2 features, its 128
  hidden values and the distance into one row of 261 entries, contracts it with the whole first weight in ONE sum, adds
  the bias and clips at zero, then applies the second layer. Reading the joined row piece by piece and regrouping the
  261-term sum by bands gives the network's value on the edge, in the banded form the kernel's three products have.
-/
import proofs.«134984_j5403068859067_2_alg».proof.Proof.Gen.ReferenceIdeal.Read
import proofs.«134984_j5403068859067_2_alg».proof.Proof.EdgeNetwork
import Idealize.ShloMosaic.Lib.Pipeline.Value
import Idealize.ShloMosaic.Lib.ValueIdx
import Idealize.ShloMosaic.PureOps.Ideal.Laws

set_option maxRecDepth 16384

noncomputable section

namespace Cert.ReferenceIdeal.EdgeMlp

open Cert.ReferenceIdeal Cert.ReferenceIdeal.Gen Cert.ReferenceIdeal.Read Cert.EdgeNetwork
open Idealize.ShloMosaic Idealize.ShloMosaic.TcCoe Idealize.ShloMosaic.ValueIdx Idealize.SL.Sem

variable (x0 : (⟨S50000x2, .f32⟩ : BufTy).Contents (Elt Ideal)) (x1 : (⟨S50000x128, .f32⟩ : BufTy).Contents (Elt Ideal))
  (x2 : (⟨S800000, .f32⟩ : BufTy).Contents (Elt Ideal)) (x3 x4 : (⟨S800000, .i32⟩ : BufTy).Contents (Elt Ideal))
  (x5 : (⟨S261x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-! ## The joined row, piece by piece -/

theorem joined_dstFeat (e : Fin 800000) (j : Fin 2) (col : Fin 261) (hc : col.val = j.val) :
    val_main_v29 (F := Ideal) x0 x1 x2 x3 x4 (ix2 e col) = val_main_v6 (F := Ideal) x0 x4 (ix2 e j) := by
  unfold val_main_v29
  exact concatenate_apply_piece (t := S800000x261) (1 : Fin 2) [⟨S800000x2, (val_main_v6 (F := Ideal) x0 x4)⟩, ⟨S800000x128, (val_main_v13 (F := Ideal) x1 x4)⟩, ⟨S800000x2, (val_main_v20 (F := Ideal) x0 x3)⟩, ⟨S800000x128, (val_main_v27 (F := Ideal) x1 x3)⟩, ⟨S800000x1, (val_main_v28 (F := Ideal) x2)⟩] concatenates_S800000x2_S800000x128_S800000x2_S800000x128_S800000x1_S800000x261_d1 (ix2 e col) 0 (by simp) S800000x2 _ rfl rfl 0 rfl (ix2 e j)
    (fun b hb => by match b with | ⟨0, _⟩ => rfl | ⟨1, _⟩ => exact absurd rfl hb) (by show 0 + j.val = col.val; omega)

theorem joined_dstHidden (e : Fin 800000) (j : Fin 128) (col : Fin 261) (hc : col.val = 2 + j.val) :
    val_main_v29 (F := Ideal) x0 x1 x2 x3 x4 (ix2 e col) = val_main_v13 (F := Ideal) x1 x4 (ix2 e j) := by
  unfold val_main_v29
  exact concatenate_apply_piece (t := S800000x261) (1 : Fin 2) [⟨S800000x2, (val_main_v6 (F := Ideal) x0 x4)⟩, ⟨S800000x128, (val_main_v13 (F := Ideal) x1 x4)⟩, ⟨S800000x2, (val_main_v20 (F := Ideal) x0 x3)⟩, ⟨S800000x128, (val_main_v27 (F := Ideal) x1 x3)⟩, ⟨S800000x1, (val_main_v28 (F := Ideal) x2)⟩] concatenates_S800000x2_S800000x128_S800000x2_S800000x128_S800000x1_S800000x261_d1 (ix2 e col) 1 (by simp) S800000x128 _ rfl rfl 2 rfl (ix2 e j)
    (fun b hb => by match b with | ⟨0, _⟩ => rfl | ⟨1, _⟩ => exact absurd rfl hb) (by show 2 + j.val = col.val; omega)

theorem joined_srcFeat (e : Fin 800000) (j : Fin 2) (col : Fin 261) (hc : col.val = 130 + j.val) :
    val_main_v29 (F := Ideal) x0 x1 x2 x3 x4 (ix2 e col) = val_main_v20 (F := Ideal) x0 x3 (ix2 e j) := by
  unfold val_main_v29
  exact concatenate_apply_piece (t := S800000x261) (1 : Fin 2) [⟨S800000x2, (val_main_v6 (F := Ideal) x0 x4)⟩, ⟨S800000x128, (val_main_v13 (F := Ideal) x1 x4)⟩, ⟨S800000x2, (val_main_v20 (F := Ideal) x0 x3)⟩, ⟨S800000x128, (val_main_v27 (F := Ideal) x1 x3)⟩, ⟨S800000x1, (val_main_v28 (F := Ideal) x2)⟩] concatenates_S800000x2_S800000x128_S800000x2_S800000x128_S800000x1_S800000x261_d1 (ix2 e col) 2 (by simp) S800000x2 _ rfl rfl 130 rfl (ix2 e j)
    (fun b hb => by match b with | ⟨0, _⟩ => rfl | ⟨1, _⟩ => exact absurd rfl hb) (by show 130 + j.val = col.val; omega)

theorem joined_srcHidden (e : Fin 800000) (j : Fin 128) (col : Fin 261) (hc : col.val = 132 + j.val) :
    val_main_v29 (F := Ideal) x0 x1 x2 x3 x4 (ix2 e col) = val_main_v27 (F := Ideal) x1 x3 (ix2 e j) := by
  unfold val_main_v29
  exact concatenate_apply_piece (t := S800000x261) (1 : Fin 2) [⟨S800000x2, (val_main_v6 (F := Ideal) x0 x4)⟩, ⟨S800000x128, (val_main_v13 (F := Ideal) x1 x4)⟩, ⟨S800000x2, (val_main_v20 (F := Ideal) x0 x3)⟩, ⟨S800000x128, (val_main_v27 (F := Ideal) x1 x3)⟩, ⟨S800000x1, (val_main_v28 (F := Ideal) x2)⟩] concatenates_S800000x2_S800000x128_S800000x2_S800000x128_S800000x1_S800000x261_d1 (ix2 e col) 3 (by simp) S800000x128 _ rfl rfl 132 rfl (ix2 e j)
    (fun b hb => by match b with | ⟨0, _⟩ => rfl | ⟨1, _⟩ => exact absurd rfl hb) (by show 132 + j.val = col.val; omega)

theorem joined_dist (e : Fin 800000) :
    val_main_v29 (F := Ideal) x0 x1 x2 x3 x4 (ix2 e (260 : Fin 261)) = x2 (ix1 e) := by
  unfold val_main_v29
  refine (concatenate_apply_piece (t := S800000x261) (1 : Fin 2) [⟨S800000x2, (val_main_v6 (F := Ideal) x0 x4)⟩, ⟨S800000x128, (val_main_v13 (F := Ideal) x1 x4)⟩, ⟨S800000x2, (val_main_v20 (F := Ideal) x0 x3)⟩, ⟨S800000x128, (val_main_v27 (F := Ideal) x1 x3)⟩, ⟨S800000x1, (val_main_v28 (F := Ideal) x2)⟩] concatenates_S800000x2_S800000x128_S800000x2_S800000x128_S800000x1_S800000x261_d1 (ix2 e (260 : Fin 261)) 4 (by simp) S800000x1 _ rfl rfl 260 rfl (ix2 e (0 : Fin 1))
    (fun b hb => by match b with | ⟨0, _⟩ => rfl | ⟨1, _⟩ => exact absurd rfl hb) rfl).trans ?_
  rw [val_main_v28_apply]
  exact congrArg x2 (funext fun a => by match a with | ⟨0, _⟩ => rfl)

/-! ## The two layers -/

/-- The reference's hidden values of edge e. -/
theorem hidden_apply (e : Fin 800000) (h : Fin 128) :
    val_main_v34 (F := Ideal) x0 x1 x2 x3 x4 x5 x6 (ix2 e h)
      = hidden (fun k => val_main_v6 (F := Ideal) x0 x4 (ix2 e k)) (fun k => val_main_v13 (F := Ideal) x1 x4 (ix2 e k))
          (fun k => val_main_v20 (F := Ideal) x0 x3 (ix2 e k)) (fun k => val_main_v27 (F := Ideal) x1 x3 (ix2 e k))
          (x2 (ix1 e)) (fun k h => x5 (ix2 k h)) (fun h => x6 (ix1 h)) h := by
  rw [val_main_v34_apply, val_main_v33_apply, val_main_v30_apply, val_main_v32_apply, val_main_v31_apply, val_main_call0_v0_apply,
    val_main_call0_cst_apply]
  have hl : ∀ k : Fin 261, lidx_main_v30 (ix2 e h) k = ix2 e k := fun k => funext fun a => by
    match a with | ⟨0, _⟩ => rfl | ⟨1, _⟩ => rfl
  have hr : ∀ k : Fin 261, ridx_main_v30 (ix2 e h) k = ix2 k h := fun k => funext fun a => by
    match a with | ⟨0, _⟩ => rfl | ⟨1, _⟩ => rfl
  have hb : idx_main_v31 (idx_main_v32 (ix2 e h)) = ix1 h := funext fun a => by
    match a with | ⟨0, _⟩ => rfl
  simp only [hl, hr, hb]
  show max ((∑ k : Fin 261, val_main_v29 (F := Ideal) x0 x1 x2 x3 x4 (ix2 e k) * x5 (ix2 k h)) + x6 (ix1 h))
      (Ideal.ofBits .f32 0x00000000#32) = _
  rw [Ideal.ofBits_zero_f32]
  exact hidden_of_joined _ _ _ _ _ (fun k h => x5 (ix2 k h)) (fun h => x6 (ix1 h)) h
    (fun k => val_main_v29 (F := Ideal) x0 x1 x2 x3 x4 (ix2 e k))
    (joined_dstFeat x0 x1 x2 x3 x4 e 0 0 rfl) (joined_dstFeat x0 x1 x2 x3 x4 e 1 1 rfl)
    (fun k => joined_dstHidden x0 x1 x2 x3 x4 e k _ rfl)
    (joined_srcFeat x0 x1 x2 x3 x4 e 0 130 rfl) (joined_srcFeat x0 x1 x2 x3 x4 e 1 131 rfl)
    (fun k => joined_srcHidden x0 x1 x2 x3 x4 e k _ rfl)
    (joined_dist x0 x1 x2 x3 x4 e)

/-- The reference's result at edge e, column q. -/
theorem result_apply (e : Fin 800000) (q : Fin 128) :
    val_main_v39 (F := Ideal) x0 x1 x2 x3 x4 x5 x6 x7 x8 (ix2 e q)
      = output (hidden (fun k => val_main_v6 (F := Ideal) x0 x4 (ix2 e k)) (fun k => val_main_v13 (F := Ideal) x1 x4 (ix2 e k))
          (fun k => val_main_v20 (F := Ideal) x0 x3 (ix2 e k)) (fun k => val_main_v27 (F := Ideal) x1 x3 (ix2 e k))
          (x2 (ix1 e)) (fun k h => x5 (ix2 k h)) (fun h => x6 (ix1 h)))
          (fun h q => x7 (ix2 h q)) (fun q => x8 (ix1 q)) q := by
  rw [val_main_v39_apply, val_main_v38_apply, val_main_v35_apply, val_main_v37_apply, val_main_v36_apply, val_main_call1_v0_apply,
    val_main_call1_cst_apply]
  have hl : ∀ k : Fin 128, lidx_main_v35 (ix2 e q) k = ix2 e k := fun k => funext fun a => by
    match a with | ⟨0, _⟩ => rfl | ⟨1, _⟩ => rfl
  have hr : ∀ k : Fin 128, ridx_main_v35 (ix2 e q) k = ix2 k q := fun k => funext fun a => by
    match a with | ⟨0, _⟩ => rfl | ⟨1, _⟩ => rfl
  have hb : idx_main_v36 (idx_main_v37 (ix2 e q)) = ix1 q := funext fun a => by
    match a with | ⟨0, _⟩ => rfl
  simp only [hl, hr, hb, hidden_apply]
  show max ((∑ k : Fin 128, _ * x7 (ix2 k q)) + x8 (ix1 q)) (Ideal.ofBits .f32 0x00000000#32) = _
  rw [Ideal.ofBits_zero_f32]
  rfl

end Cert.ReferenceIdeal.EdgeMlp

end
-- ==== Proof.lean ====
/-
  The certificate of the edge network: the Pallas kernel with its gathers and packing around it, against the plain
  jnp reference, over the extended reals.

  Both programs compute, for each of 800000 edges, a two-layer network of the edge's 261 inputs: the destination
  node's 2 features and 128 hidden values, the source node's 2 features and 128 hidden values, and the edge's distance.
  The reference joins the five pieces into one row and contracts it with the whole 261 × 128 weight. The kernel
  contracts the two hidden pieces with rows 2…129 and 132…259 of the weight and the five narrow inputs with rows
  0, 1, 130, 131, 260, and adds the three products. The two agree because a finite sum may be regrouped (commutativity
  and associativity of addition on the extended reals; no finiteness is used), a change of float format is the identity
  at the ideal instance, and both programs gather the same rows by the same indices.

  The frames: each kernel program is one stretch of host operations followed by one pallas_call over 100 grid points
  whose body loads its ten buffers and covers its output buffer with one store (the run modules); the reference is a
  straight line of host operations (its generated run). The idealization rewrote no operation, so nothing is owed for it.
-/
import proofs.«134984_j5403068859067_2_alg».proof.Defs
import proofs.«134984_j5403068859067_2_alg».proof.Proof.Gen.Kernel
import proofs.«134984_j5403068859067_2_alg».proof.Proof.Gen.KernelIdeal
import proofs.«134984_j5403068859067_2_alg».proof.Proof.Gen.ReferenceIdeal
import proofs.«134984_j5403068859067_2_alg».proof.Proof.Gen.Pre_finite_inputs
import proofs.«134984_j5403068859067_2_alg».proof.Proof.Gen.ReferenceIdeal.Run
import proofs.«134984_j5403068859067_2_alg».proof.Proof.Gen.ReferenceIdeal.Read
import proofs.«134984_j5403068859067_2_alg».proof.Proof.EdgeMlpRunWords
import proofs.«134984_j5403068859067_2_alg».proof.Proof.EdgeMlpValue
import proofs.«134984_j5403068859067_2_alg».proof.Proof.ReferenceRows
import Idealize.ShloMosaic.Adequacy
import Idealize.ShloMosaic.Init

set_option maxRecDepth 16384

noncomputable section

namespace Cert.Proof

open Idealize.ShloMosaic Idealize.ShloMosaic.TcCoe Idealize.SL.Sem

/-! ## Both programs gather the same rows -/

/-- The reference's gathered feature rows are the kernel's: the same gather by the same normalised indices, of a table
    whose recast to the narrow format is the identity at the ideal instance. -/
theorem dstFeatures_eq (x0 : (⟨Cert.ReferenceIdeal.S50000x2, .f32⟩ : BufTy).Contents (Elt Ideal))
    (x : (⟨Cert.ReferenceIdeal.S800000, .i32⟩ : BufTy).Contents (Elt Ideal)) :
    Cert.ReferenceIdeal.Read.val_main_v6 (F := Ideal) x0 x = Cert.KernelIdeal.EdgeMlp.featureRows x0 x := rfl

theorem srcFeatures_eq (x0 : (⟨Cert.ReferenceIdeal.S50000x2, .f32⟩ : BufTy).Contents (Elt Ideal))
    (x : (⟨Cert.ReferenceIdeal.S800000, .i32⟩ : BufTy).Contents (Elt Ideal)) :
    Cert.ReferenceIdeal.Read.val_main_v20 (F := Ideal) x0 x = Cert.KernelIdeal.EdgeMlp.featureRows x0 x := rfl

theorem dstHidden_eq (x1 : (⟨Cert.ReferenceIdeal.S50000x128, .f32⟩ : BufTy).Contents (Elt Ideal))
    (x : (⟨Cert.ReferenceIdeal.S800000, .i32⟩ : BufTy).Contents (Elt Ideal)) :
    Cert.ReferenceIdeal.Read.val_main_v13 (F := Ideal) x1 x = Cert.KernelIdeal.EdgeMlp.hiddenRows x1 x := rfl

theorem srcHidden_eq (x1 : (⟨Cert.ReferenceIdeal.S50000x128, .f32⟩ : BufTy).Contents (Elt Ideal))
    (x : (⟨Cert.ReferenceIdeal.S800000, .i32⟩ : BufTy).Contents (Elt Ideal)) :
    Cert.ReferenceIdeal.Read.val_main_v27 (F := Ideal) x1 x = Cert.KernelIdeal.EdgeMlp.hiddenRows x1 x := rfl

/-- The reference's result of the kernel program's arguments is the kernel's result array: at every edge and column both
    are the network's value in its banded form. -/
theorem values_agree (m : (ℓ : Loc Cert.KernelIdeal.nD Cert.KernelIdeal.τ Cert.KernelIdeal.sig) → Buf (Elt Ideal) ℓ)
    (c : Dev Cert.KernelIdeal.nD) :
    Cert.ReferenceIdeal.Read.val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.EdgeMlp.arrayValue m c := by
  funext i
  obtain ⟨e, q, rfl⟩ : ∃ (e : Fin 800000) (q : Fin 128), i = ValueIdx.ix2 e q := ⟨i 0, i 1, ValueIdx.eq_ix2 i⟩
  rw [Cert.KernelIdeal.EdgeMlp.result_apply, Cert.ReferenceIdeal.EdgeMlp.result_apply]
  simp only [dstFeatures_eq, srcFeatures_eq, dstHidden_eq, srcHidden_eq]

/-! ## The claims -/

theorem frame_words : Cert.frame_Kernel := fun m ρ _ => Cert.Kernel.EdgeMlp.frame m ρ

theorem frame_ideal : Cert.frame_KernelIdeal := fun m ρ _ => Cert.KernelIdeal.EdgeMlp.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments both idealized programs run to the end, the arguments unchanged, with
    the same result array. -/
theorem algebraic : Cert.algebraic_KernelIdeal_ReferenceIdeal := by
  intro m ρ m' ρ' _ hagree
  refine ⟨fun c => Cert.KernelIdeal.EdgeMlp.arrayValue m c, Cert.KernelIdeal.EdgeMlp.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, a0, a1, a2, a3, a4, a5, a6, a7, a8]
  exact values_agree m c

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
